-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg0 : IVec S8192x8192 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S8192x8192 32 := broadcastInDim S8192x8192 ![] bcast_S_S8192x8192 main_c_6
  let main_v20 : IVec S8192x8192 1 := cmpi .eq main_arg0 main_v19
  let main_c_7 : IVec S_ 32 := constantI S_ 32 1#32
  let main_v21 : IVec S8192x8192 32 := broadcastInDim S8192x8192 ![] bcast_S_S8192x8192 main_c_7
  let main_v22 : IVec S8192x8192 1 := cmpi .eq main_arg0 main_v21
  let main_v23 : IVec S8192x8192 1 := ori main_v20 main_v22
  let main_c_8 : IVec S_ 1 := constantI S_ 1 1#1
  let main_v24 : IVec S_ 1 := (fun x v => Host.reduce IntOp.andi x v reducesTo_S8192x8192_S_d0_1 h_S_) main_v23 main_c_8
  let main_v25 : IVec S_ 1 := andi main_v18 main_v24
  main_v25

def fn {F : FTy → Type} [FloatOps F] (main_arg0 : IVec S8192x8192 32) (main_arg1 : FVec F S8192x256 .f32) (main_arg2 : FVec F S8192x8192 .f32) (main_arg3 : FVec F S256x256 .f32) (main_arg4 : FVec F S256 .f32) : IVec S_ 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_v13 main_v16
-- ==== Kernel.lean ====
abbrev S8192x8192 : Shape := ⟨2, ![8192, 8192]⟩
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S512x2048 : Shape := ⟨2, ![512, 2048]⟩
abbrev S512x256 : Shape := ⟨2, ![512, 256]⟩
abbrev S2048x256 : Shape := ⟨2, ![2048, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x8192, .i32⟩
  | .hbm, ⟨1, _⟩ => ⟨S8192x256, .f32⟩
  | .hbm, ⟨2, _⟩ => ⟨S8192x8192, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S8192x256, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S8192x256, .f32⟩
  | .local _ .vmem, ⟨5, _⟩ => ⟨S256x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | _, _ => ⟨S8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v10 : BitVec 32 := Scalar.muli arg1 c2048_i32
  v10
def k0_off1 (i : grid0.Coords) : Fin 2 → Nat :=
  let arg1 : BitVec 32 := BitVec.ofNat 32 (i 1).val
  let c2048_i32 : BitVec 32 := 2048#32
  let v10 : BitVec 32 := Scalar.muli arg1 c2048_i32
  let v11 : BitVec 32 := v10
  let v12 : Index := Scalar.indexCast v11
  let c0_5 : Index := 0#32
  ![v12.toNat, 0]
def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  h_S2048x256 : 0 < S2048x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .i32 = 32 ∨ (Rect.block (s := S8192x8192) S512x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .f32 = 32 ∨ (Rect.block (s := S8192x256) S8192x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x256.size a
  hwx0_5 : ∀ i : grid0.Coords, EltTy.bits .f32 = 32 ∨ (Rect.block (s := S8192x256) S512x256.size (cc0_transform_5 i) (hinb0_5 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .i32⟩
  | .hbm, ⟨1, _⟩ => ⟨S8192x256, .f32⟩
  | .hbm, ⟨2, _⟩ => ⟨S8192x8192, .f32⟩
  | .hbm, ⟨3, _⟩ => ⟨S256x256, .f32⟩
  | .hbm, ⟨4, _⟩ => ⟨S256, .f32⟩
  | .hbm, ⟨5, _⟩ => ⟨S8192x8192, .f32⟩
  | .hbm, ⟨6, _⟩ => ⟨S8192x8192, .f32⟩
  | .hbm, ⟨7, _⟩ => ⟨S8192x256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | _, _ => ⟨S8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.GacPre.lean ====
/-
  What the precondition says of the adjacency matrix: every word of it is 0 or 1.

  The precondition is a conjunction of "all" tests reduced to one bit; its last conjunct tests, entry by entry, that the
  adjacency word equals 0 or equals 1. That the whole conjunction is 1 gives that this conjunct is 1, and a reduction by
  "and" over every entry that comes out 1 met a 1 at every entry.
-/
import proofs.«149642_j28784870818074_2_alg».proof.Pre_finite_inputs
import Idealize.ShloMosaic.Lib.ReduceAll
import Idealize.ShloMosaic.Lib.ValueIdx

noncomputable section

namespace Cert.Gac

open Idealize.ShloMosaic Cert.Pre_finite_inputs

/-- The scalar shape has one index. -/
instance subsingleton_scalar_idx : Subsingleton S_.Idx := ⟨fun _ _ => funext fun d => d.elim0⟩

/-- Under the precondition every adjacency word is 0 or 1. -/
theorem adjacency_zero_or_one {F : FTy → Type} [FloatOps F] [hF : Cert.Pre_finite_inputs.Facts]
    (a0 : IVec S8192x8192 32) (a1 : FVec F S8192x256 .f32) (a2 : FVec F S8192x8192 .f32)
    (a3 : FVec F S256x256 .f32) (a4 : FVec F S256 .f32)
    (h : Cert.Pre_finite_inputs.fn (F := F) a0 a1 a2 a3 a4 = fun _ => 1#1) (i : S8192x8192.Idx) :
    a0 i = 0#32 ∨ a0 i = 1#32 := by
  have h0 := congrFun h ValueIdx.ix0
  unfold Cert.Pre_finite_inputs.fn Cert.Pre_finite_inputs.fn_part1 at h0
  dsimp only at h0
  have h1 := (IntOp.andi_eq_one.mp h0).2
  have h2 := Host.reduce_andi_all _ _ _ _ _ h1 i
  have h3 : IntOp.ori (IntOp.cmpi .eq (a0 i) 0#32) (IntOp.cmpi .eq (a0 i) 1#32) = 1#1 := h2
  rcases IntOp.ori_eq_one.mp h3 with e | e
  · exact Or.inl (IntOp.cmpi_eq.mp e)
  · exact Or.inr (IntOp.cmpi_eq.mp e)

end Cert.Gac

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.GacSpec.lean ====
/-
  The graph-attention convolution both programs compute, as one function of the five argument arrays.

  For a node i and an output feature o,

      out (i, o) = max ( (∑ f, agg (i, f) · W (f, o)) + b o , 0 ),
      agg (i, f) = ∑ j, masked (i, j) · x (j, f),

  where masked (i, j) is the attention weight attn (i, j) when the adjacency word adj (i, j) is not zero, and zero
  otherwise. All arithmetic is on the extended reals.

  Two facts join the two programs to this function:
  * for an adjacency word that is 0 or 1, the product of the attention weight with the word read as a number IS the
    masked weight (`mul_sitofp_eq_masked`) — for any other word it is not: 2 doubles the weight;
  * a sum over the 8192 neighbours is zero plus the sums over four consecutive runs of 2048 neighbours, added one after
    the other (`zero_add_runs`): only associativity and commutativity of addition, so no finiteness is needed.
-/
import Idealize.ShloMosaic.PureOps.Ideal
import Idealize.ShloMosaic.PureOps.Ideal.Laws
import Idealize.ShloMosaic.Lib.ValueIdx
import Idealize.ShloMosaic.Lib.Affine
import proofs.«149642_j28784870818074_2_alg».proof.Proof.LibSumSplit

noncomputable section

open scoped BigOperators

namespace Cert.Gac

open Idealize.ShloMosaic Idealize.ShloMosaic.ValueIdx

/-- The zero both programs write as the f32 word of all zero bits. -/
abbrev zero : EReal := Ideal.ofBits .f32 0x00000000#32

/-- The masked attention weight: `v` where the adjacency word `a` is not zero, zero where it is. -/
def masked (a : BitVec 32) (v : EReal) : EReal :=
  Scalar.select (IntOp.cmpi .ne a 0#32) v zero

theorem masked_zero (v : EReal) : masked 0#32 v = zero := rfl

theorem masked_one (v : EReal) : masked 1#32 v = v := rfl

/-- For an adjacency word that is 0 or 1, weighting by the word read as a signed integer is masking. -/
theorem mul_sitofp_eq_masked (a : BitVec 32) (v : EReal) (ha : a = 0#32 ∨ a = 1#32) :
    v * FloatOps.sitofp (F := Ideal) .f32 a = masked a v := by
  rcases ha with rfl | rfl
  · rw [masked_zero]
    show v * (((0#32 : BitVec 32).toInt : ℝ) : EReal) = Ideal.ofBits .f32 0x00000000#32
    rw [Ideal.ofBits_zero_f32]
    simp
  · rw [masked_one]
    show v * (((1#32 : BitVec 32).toInt : ℝ) : EReal) = v
    simp

/-- The aggregated feature `f` of node `i`: the masked attention weights of its row against column `f` of `x`. -/
def agg (adj : (⟨2, ![8192, 8192]⟩ : Shape).Idx → BitVec 32) (attn : (⟨2, ![8192, 8192]⟩ : Shape).Idx → EReal)
    (x : (⟨2, ![8192, 256]⟩ : Shape).Idx → EReal) (i : Fin 8192) (f : Fin 256) : EReal :=
  ∑ j : Fin 8192, masked (adj (ix2 i j)) (attn (ix2 i j)) * x (ix2 j f)

/-- The layer's output: the aggregated features through the linear map `W`, plus the bias, clipped below at zero. -/
def gac (adj : (⟨2, ![8192, 8192]⟩ : Shape).Idx → BitVec 32) (x : (⟨2, ![8192, 256]⟩ : Shape).Idx → EReal)
    (attn : (⟨2, ![8192, 8192]⟩ : Shape).Idx → EReal) (W : (⟨2, ![256, 256]⟩ : Shape).Idx → EReal)
    (b : (⟨1, ![256]⟩ : Shape).Idx → EReal) : (⟨2, ![8192, 256]⟩ : Shape).Idx → EReal :=
  fun i => max ((∑ f : Fin 256, agg adj attn x (i 0) f * W (ix2 f (i 1))) + b (ix1 (i 1))) zero

/-- Neighbour `s` of run `k` (four runs of 2048) is neighbour `2048·k + s`. -/
abbrev nbr (k : Fin 4) (s : Fin 2048) : Fin 8192 := ⟨2048 * k.val + s.val, SumSplit.blk_lt (n := 4) (b := 2048) k s⟩

/-- Zero, then the four runs' sums added one after the other, is the sum over all 8192 neighbours. -/
theorem zero_add_runs (g : Fin 8192 → EReal) (M : ℕ → EReal)
    (hM : ∀ k : Fin 4, M k.val = ∑ s : Fin 2048, g (nbr k s)) :
    zero + ∑ k ∈ Finset.range 4, M k = ∑ j : Fin 8192, g j := by
  rw [show (zero : EReal) = 0 from Ideal.ofBits_zero_f32, zero_add, Finset.sum_range]
  rw [show (∑ j : Fin 8192, g j) = ∑ j : Fin (4 * 2048), g j from rfl, SumSplit.sum_blocks 4 2048 g]
  exact Finset.sum_congr rfl fun k _ => hM k

end Cert.Gac

end
-- ==== Proof.GacReference.lean ====
/-
  The reference computes the graph-attention convolution.

  Its ten operations, read one after the other at an output index (i, o): the adjacency words as numbers, their product
  with the attention weights, the product of that matrix with `x` (a sum over the 8192 neighbours), the product with `W`
  (a sum over the 256 features), the bias row laid under every node, the sum, and the maximum with zero. With every
  adjacency word 0 or 1 the weighted entry is the masked entry, and the whole is `Cert.Gac.gac`.
-/
import proofs.«149642_j28784870818074_2_alg».proof.Proof.Gen.ReferenceIdeal.Read
import proofs.«149642_j28784870818074_2_alg».proof.Proof.GacSpec

noncomputable section

open scoped BigOperators

namespace Cert.Gac

open Idealize.ShloMosaic Idealize.ShloMosaic.ValueIdx Cert.ReferenceIdeal Cert.ReferenceIdeal.Read

/-- The reference's result, as a function of the argument arrays, is the graph-attention convolution — when every
    adjacency word is 0 or 1. -/
theorem reference_eq_gac (x0 : S8192x8192.Idx → BitVec 32) (x1 : S8192x256.Idx → EReal) (x2 : S8192x8192.Idx → EReal)
    (x3 : S256x256.Idx → EReal) (x4 : S256.Idx → EReal) (hadj : ∀ i, x0 i = 0#32 ∨ x0 i = 1#32) :
    val_main_v7 (F := Ideal) x0 x1 x2 x3 x4 = gac x0 x1 x2 x3 x4 := by
  funext i
  obtain ⟨p, q, rfl⟩ : ∃ (p : Fin 8192) (q : Fin 256), i = ix2 p q := ⟨i 0, i 1, eq_ix2 i⟩
  have el3 : ∀ k : Fin 256, lidx_main_v3 (ix2 p q) k = ix2 p k := fun k =>
    funext fun a => by match a with | ⟨0, _⟩ => rfl | ⟨1, _⟩ => rfl
  have er3 : ∀ k : Fin 256, ridx_main_v3 (ix2 p q) k = ix2 k q := fun k =>
    funext fun a => by match a with | ⟨0, _⟩ => rfl | ⟨1, _⟩ => rfl
  have el2 : ∀ (k : Fin 256) (j : Fin 8192), lidx_main_v2 (ix2 p k) j = ix2 p j := fun k j =>
    funext fun a => by match a with | ⟨0, _⟩ => rfl | ⟨1, _⟩ => rfl
  have er2 : ∀ (k : Fin 256) (j : Fin 8192), ridx_main_v2 (ix2 p k) j = ix2 j k := fun k j =>
    funext fun a => by match a with | ⟨0, _⟩ => rfl | ⟨1, _⟩ => rfl
  have eb : idx_main_v4 (idx_main_v5 (ix2 p q)) = ix1 q :=
    funext fun a => by match a with | ⟨0, _⟩ => rfl
  rw [val_main_v7_apply, val_main_v6_apply, val_main_v3_apply, val_main_v5_apply, val_main_v4_apply,
    val_main_call0_v0_apply, val_main_call0_cst_apply, eb]
  show max ((∑ k : Fin 256, val_main_v2 (F := Ideal) x0 x1 x2 (lidx_main_v3 (ix2 p q) k) * x3 (ridx_main_v3 (ix2 p q) k)) + x4 (ix1 q)) zero
    = max ((∑ f : Fin 256, agg x0 x2 x1 p f * x3 (ix2 f q)) + x4 (ix1 q)) zero
  refine congrArg (fun s => max (s + x4 (ix1 q)) zero) (Finset.sum_congr rfl fun k _ => ?_)
  rw [el3, er3, val_main_v2_apply]
  refine congrArg (· * x3 (ix2 k q)) (Finset.sum_congr rfl fun j _ => ?_)
  rw [el2, er2, val_main_v1_apply, val_main_v0_apply]
  show x2 (ix2 p j) * FloatOps.sitofp (F := Ideal) .f32 (x0 (ix2 p j)) * x1 (ix2 j k) = _
  rw [mul_sitofp_eq_masked _ _ (hadj _)]

end Cert.Gac

end
-- ==== Proof.GacPieces.lean ====
/-
  What one run of the kernel body leaves, in each of its three cases, as values.

  The body's stores are whole-buffer stores, so what a buffer holds after the body is the payload of its last store,
  and a load that follows a store reads that store's payload:
  * at the first step of a row block (case A) the accumulator is set to zero, read back, and left at
    zero + (this step's product);
  * at a middle step (case B) it is left at (what the step before left) + (this step's product);
  * at the last step (case C) the same, and the output block is left at the epilogue of the accumulator just stored.
  The step's product and the epilogue are the body's own arithmetic (its second and third payloads); the rows of `x`
  a step multiplies by are the 2048 rows from the step's offset.
-/
import proofs.«149642_j28784870818074_2_alg».proof.Proof.Gen.KernelIdeal.Frame
import Idealize.ShloMosaic.Lib.Pipeline.Value
import Idealize.ShloMosaic.Lib.Tactic

set_option maxRecDepth 16384

noncomputable section

namespace Cert.KernelIdeal.GacPieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The 2048 rows of `x` the body loads at grid point `i`. -/
abbrev rows (i : grid0.Coords) (x2 : Vec F S8192x256 .f32) : Vec F S2048x256 .f32 :=
  View.ld x2 (Rect.unit (s := S8192x256) (k0_off1 i) S2048x256.size (k0_off1_inb i))

/-- Case A (first step of a row block): the accumulator is left at the step's sum over the zero block. -/
theorem acc_first (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (hc0 : cond0_0 i) (hc1 : ¬cond0_1 i) (x0 : Vec F S512x2048 .f32) (x1 : Vec F S512x2048 .i32) (x2 : Vec F S8192x256 .f32) (x3 : Vec F S256x256 .f32) (x4 : Vec F S1x256 .f32) :
    sout0_A_0 c i arg2 harg2 arg3 harg3 arg4 harg4 arg5 harg5 arg6 harg6 arg7 harg7 arg8 harg8 hc0 hc1 x0 x1 x2 x3 x4 = k0_pay2 x1 x0 (rows i x2) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, View.ld_unit_zero (S := S512x2048) hz, View.ld_unit_zero (S := S512x256) hz, View.ld_unit_zero (S := S256x256) hz, View.ld_unit_zero (S := S1x256) hz]
  rfl

/-- Case B (a middle step): the accumulator is left at the step's sum over what the step before left. -/
theorem acc_middle (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (hc0 : ¬cond0_0 i) (hc1 : ¬cond0_1 i) (x0 : Vec F S512x2048 .f32) (x1 : Vec F S512x2048 .i32) (x2 : Vec F S8192x256 .f32) (x3 : Vec F S256x256 .f32) (x4 : Vec F S1x256 .f32) (xs0 : Vec F S512x256 .f32) :
    sout0_B_0 c i arg2 harg2 arg3 harg3 arg4 harg4 arg5 harg5 arg6 harg6 arg7 harg7 arg8 harg8 hc0 hc1 x0 x1 x2 x3 x4 xs0 = k0_pay2 x1 x0 (rows i x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg8.read_unread, View.ld_unit_zero (S := S512x2048) hz, View.ld_unit_zero (S := S512x256) hz, View.ld_unit_zero (S := S256x256) hz, View.ld_unit_zero (S := S1x256) hz]
  rfl

/-- Case C (the last step): the accumulator is left at the step's sum over what the step before left … -/
theorem acc_last (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (hc0 : ¬cond0_0 i) (hc1 : cond0_1 i) (x0 : Vec F S512x2048 .f32) (x1 : Vec F S512x2048 .i32) (x2 : Vec F S8192x256 .f32) (x3 : Vec F S256x256 .f32) (x4 : Vec F S1x256 .f32) (xs0 : Vec F S512x256 .f32) :
    sout0_C_0 c i arg2 harg2 arg3 harg3 arg4 harg4 arg5 harg5 arg6 harg6 arg7 harg7 arg8 harg8 hc0 hc1 x0 x1 x2 x3 x4 xs0 = k0_pay2 x1 x0 (rows i x2) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread, View.ld_unit_zero (S := S512x2048) hz, View.ld_unit_zero (S := S512x256) hz, View.ld_unit_zero (S := S256x256) hz, View.ld_unit_zero (S := S1x256) hz]
  rfl

/-- … and the output block at the epilogue of that accumulator. -/
theorem out_last (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (hc0 : ¬cond0_0 i) (hc1 : cond0_1 i) (x0 : Vec F S512x2048 .f32) (x1 : Vec F S512x2048 .i32) (x2 : Vec F S8192x256 .f32) (x3 : Vec F S256x256 .f32) (x4 : Vec F S1x256 .f32) (xs0 : Vec F S512x256 .f32) :
    out0_C_5 c i arg2 harg2 arg3 harg3 arg4 harg4 arg5 harg5 arg6 harg6 arg7 harg7 arg8 harg8 hc0 hc1 x0 x1 x2 x3 x4 xs0 = k0_pay3 (k0_pay2 x1 x0 (rows i x2) xs0) x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S512x256) _ hz]
  simp only [View.readAt_eq_ld, harg2.read_unread, harg3.read_unread, harg4.read_unread, harg5.read_unread, harg6.read_unread, harg8.read_unread, View.ld_unit_zero (S := S512x2048) hz, View.ld_unit_zero (S := S512x256) hz, View.ld_unit_zero (S := S256x256) hz, View.ld_unit_zero (S := S1x256) hz]
  rfl

end Cert.KernelIdeal.GacPieces

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.GacPayloads.lean ====
/-
  The body's arithmetic read at one entry, on the extended reals.

  * One step (`step_apply`): entry (p, q) of what a step leaves in the accumulator is the entry it found there plus the
    sum, over the step's 2048 neighbours s, of the masked attention weight of (p, s) times entry (s, q) of the step's rows
    of `x` — a matrix product into a zero accumulator is the plain sum of products, and the changes of float format
    around it are the identity.
  * The epilogue (`epilogue_apply`): entry (p, q) of the output block is the maximum with zero of the sum over the 256
    features f of accumulator (p, f) times W (f, q), plus the bias row's entry q.
  * The zero block (`zero_apply`).
-/
import proofs.«149642_j28784870818074_2_alg».proof.Proof.Gen.KernelIdeal.Skeleton
import proofs.«149642_j28784870818074_2_alg».proof.Proof.LibPlainMatmul
import proofs.«149642_j28784870818074_2_alg».proof.Proof.GacSpec
import Idealize.ShloMosaic.Lib.ValueIdx
import Idealize.ShloMosaic.Lib.ValueLayout
import Idealize.ShloMosaic.Lib.Pipeline.Value

noncomputable section

open scoped BigOperators

namespace Cert.KernelIdeal.GacPayloads

open Cert.KernelIdeal Cert.KernelIdeal.Gen Idealize.ShloMosaic Idealize.ShloMosaic.ValueIdx

/-- The block a row block's first step starts from is zero at every entry. -/
theorem zero_apply (j : S512x256.Idx) : k0_pay1 (F := Ideal) j = Cert.Gac.zero := by
  unfold k0_pay1
  rw [shapeCast_self]
  rfl

/-- One step at an entry: what was there, plus the step's masked weights against the step's rows of `x`. -/
theorem step_apply (v3 : IVec S512x2048 32) (v6 : FVec Ideal S512x2048 .f32) (v13 : FVec Ideal S2048x256 .f32)
    (v15 : FVec Ideal S512x256 .f32) (p : Fin 512) (q : Fin 256) :
    k0_pay2 (F := Ideal) v3 v6 v13 v15 (ix2 p q)
      = v15 (ix2 p q) + ∑ s : Fin 2048, Cert.Gac.masked (v3 (ix2 p s)) (v6 (ix2 p s)) * v13 (ix2 s q) := by
  unfold k0_pay2
  rw [shapeCast_self]
  show v15 (ix2 p q) + matmul (DotDims.plain 512 2048 256) none
      (truncf .bf16 (select (cmpi .ne v3 (broadcast S512x2048 0#32)) v6 (broadcast S512x2048 (Scalar.ofBits .f32 0x00000000#32))) Facts₀.bitsLt_bf16_f32)
      (truncf .bf16 v13 Facts₀.bitsLt_bf16_f32) (constant (F := Ideal) ⟨2, ![512, 256]⟩ .f32 0x00000000#32) (ix2 p q) = _
  rw [PlainMatmul.plainMatmul_apply]
  rfl

/-- The epilogue at an entry: the accumulator's row against a column of `W`, plus the bias, clipped below at zero. -/
theorem epilogue_apply (v24 : FVec Ideal S512x256 .f32) (v25 : FVec Ideal S256x256 .f32) (v27 : FVec Ideal S1x256 .f32)
    (p : Fin 512) (q : Fin 256) :
    k0_pay3 (F := Ideal) v24 v25 v27 (ix2 p q)
      = max ((∑ f : Fin 256, v24 (ix2 p f) * v25 (ix2 f q)) + v27 (ix2 (0 : Fin 1) q)) Cert.Gac.zero := by
  unfold k0_pay3
  show max (matmul (DotDims.plain 512 256 256) (some .fp32) v24 v25 (constant (F := Ideal) ⟨2, ![512, 256]⟩ .f32 0x00000000#32) (ix2 p q)
      + broadcastTo S512x256 (shapeCast S1x256 v27 Facts₀.shapeCasts_S1x256_S1x256) Facts₀.broadcasts_S1x256_S512x256 (ix2 p q)) _ = _
  rw [PlainMatmul.plainMatmul_apply, shapeCast_self, broadcastTo_1b_ab_apply]
  rfl

end Cert.KernelIdeal.GacPayloads

end
-- ==== Proof.GacBlocks.lean ====
/-
  What the body reads at a grid point, as entries of the argument arrays.

  Grid point t is step k = t mod 4 of row block I = t div 4. Its attention and adjacency blocks are rows 512·I … and
  columns 2048·k … of the two 8192 × 8192 arrays; `x`, `W` and the bias row are staged whole; and the rows of `x` a step
  loads are rows 2048·k … . The bias row is the bias vector laid as one row by the reshape before the call.
-/
import proofs.«149642_j28784870818074_2_alg».proof.Proof.Gen.KernelIdeal.Value
import proofs.«149642_j28784870818074_2_alg».proof.Proof.GacPieces
import Idealize.ShloMosaic.Lib.ValueIdx
import Idealize.ShloMosaic.Lib.ValueLayout
import Idealize.ShloMosaic.Lib.StableHlo.Run

set_option maxRecDepth 16384

noncomputable section

namespace Cert.KernelIdeal.GacBlocks

open Cert.KernelIdeal Cert.KernelIdeal.Gen Idealize.ShloMosaic Idealize.ShloMosaic.TcCoe Idealize.SL.Sem Idealize.ShloMosaic.ValueIdx
open Cert.KernelIdeal.GacPieces (rows)

variable (m : (ℓ : Loc nD τ sig) → Buf (Elt Ideal) ℓ) (c : Dev nD)

/-- The block indices of every window, and the row offset of the step's load, at every grid point. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0
    ∧ k0_off1 (grid0.coords t) (0 : Fin 2) = 2048 * (t.val % 4) ∧ k0_off1 (grid0.coords t) (1 : Fin 2) = 0 :=
  (by decide +kernel : ∀ t : Fin grid0.N, _)

/-- The attention block at point `t`, entry (p, s): row 512·(t div 4) + p, column 2048·(t mod 4) + s. -/
theorem attn_block (t : Fin cfg0.N) (p : Fin 512) (s : Fin 2048) (P J : Fin 8192)
    (hP : P.val = 512 * (t.val / 4) + p.val) (hJ : J.val = 2048 * (t.val % 4) + s.val) :
    (iblk m c 0 t : Vec Ideal S512x2048 .f32) (ix2 p s) = V m c main_arg2 (ix2 P J) := by
  unfold iblk
  show V m c main_arg2 _ = V m c main_arg2 _
  congr 1
  funext a; apply Fin.ext
  obtain ⟨e0, e1, -⟩ := idx_facts t
  match a with
  | ⟨0, _⟩ => show win0_0.index t (0 : Fin 2) * 512 + 1 * p.val = P.val; rw [e0, hP]; omega
  | ⟨1, _⟩ => show win0_0.index t (1 : Fin 2) * 2048 + 1 * s.val = J.val; rw [e1, hJ]; omega

/-- The adjacency block at point `t`, entry (p, s): the same row and column of the adjacency matrix. -/
theorem adj_block (t : Fin cfg0.N) (p : Fin 512) (s : Fin 2048) (P J : Fin 8192)
    (hP : P.val = 512 * (t.val / 4) + p.val) (hJ : J.val = 2048 * (t.val % 4) + s.val) :
    (iblk m c 1 t : Vec Ideal S512x2048 .i32) (ix2 p s) = V m c main_arg0 (ix2 P J) := by
  unfold iblk
  show V m c main_arg0 _ = V m c main_arg0 _
  congr 1
  funext a; apply Fin.ext
  obtain ⟨-, -, e0, e1, -⟩ := idx_facts t
  match a with
  | ⟨0, _⟩ => show win0_1.index t (0 : Fin 2) * 512 + 1 * p.val = P.val; rw [e0, hP]; omega
  | ⟨1, _⟩ => show win0_1.index t (1 : Fin 2) * 2048 + 1 * s.val = J.val; rw [e1, hJ]; omega

/-- The rows of `x` the step at point `t` loads, entry (s, q): row 2048·(t mod 4) + s of `x`. -/
theorem x_rows (t : Fin cfg0.N) (s : Fin 2048) (q : Fin 256) (J : Fin 8192)
    (hJ : J.val = 2048 * (t.val % 4) + s.val) :
    rows (grid0.coords t) (iblk m c 2 t) (ix2 s q) = V m c main_arg1 (ix2 J q) := by
  unfold iblk
  show V m c main_arg1 _ = V m c main_arg1 _
  congr 1
  funext a; apply Fin.ext
  obtain ⟨-, -, -, -, e0, e1, -, -, -, -, -, -, o0, o1⟩ := idx_facts t
  match a with
  | ⟨0, _⟩ =>
    show win0_2.index t (0 : Fin 2) * 8192 + 1 * (k0_off1 (grid0.coords t) (0 : Fin 2) + 1 * s.val) = J.val
    rw [e0, o0, hJ]; omega
  | ⟨1, _⟩ =>
    show win0_2.index t (1 : Fin 2) * 256 + 1 * (k0_off1 (grid0.coords t) (1 : Fin 2) + 1 * q.val) = q.val
    rw [e1, o1]; omega

/-- `W` is staged whole. -/
theorem w_block (t : Fin cfg0.N) (f q : Fin 256) :
    (iblk m c 3 t : Vec Ideal S256x256 .f32) (ix2 f q) = V m c main_arg3 (ix2 f q) := by
  unfold iblk
  show V m c main_arg3 _ = V m c main_arg3 _
  congr 1
  funext a; apply Fin.ext
  obtain ⟨-, -, -, -, -, -, e0, e1, -⟩ := idx_facts t
  match a with
  | ⟨0, _⟩ => show win0_3.index t (0 : Fin 2) * 256 + 1 * f.val = f.val; rw [e0]; omega
  | ⟨1, _⟩ => show win0_3.index t (1 : Fin 2) * 256 + 1 * q.val = q.val; rw [e1]; omega

/-- The bias row the region finds is the bias vector laid as one row. -/
theorem bias_row_eq : (V m c main_v0 : S1x256.Idx → EReal)
    = shapeCast S1x256 (m ((c : Thread nD τ).loc main_arg4)) Facts₀.shapeCasts_S256_S1x256 := by
  dsimp only [Gen.V, Gen.hostOps0]
  after_results
  rfl

/-- The bias row is staged whole: its entry q is the bias vector's entry q. -/
theorem bias_block (t : Fin cfg0.N) (q : Fin 256) :
    (iblk m c 4 t : Vec Ideal S1x256 .f32) (ix2 (0 : Fin 1) q) = m ((c : Thread nD τ).loc main_arg4) (ix1 q) := by
  unfold iblk
  show V m c main_v0 _ = _
  have e : (((cfg0.win 4).blk t).view.emb (ix2 (0 : Fin 1) q)) = ix2 (0 : Fin 1) q := by
    funext a; apply Fin.ext
    obtain ⟨-, -, -, -, -, -, -, -, e0, e1, -⟩ := idx_facts t
    match a with
    | ⟨0, _⟩ => show win0_4.index t (0 : Fin 2) * 1 + 1 * 0 = 0; rw [e0]
    | ⟨1, _⟩ => show win0_4.index t (1 : Fin 2) * 256 + 1 * q.val = q.val; rw [e1]; omega
  rw [e, bias_row_eq, shapeCast_a_1a_apply]

end Cert.KernelIdeal.GacBlocks

end
-- ==== Proof.GacAccum.lean ====
/-
  The accumulator the kernel carries across the four steps of a row block.

  Step k of row block I adds, to entry (p, q) of the accumulator, the sum over the 2048 neighbours of run k of
  (masked attention weight of (row 512·I + p, neighbour)) · (x of (neighbour, q)) (`step_at`). The first step starts from
  zero, so after step k the accumulator is zero plus the sums of runs 0 … k added one after the other (`acc_at`), and
  after the last step it is the aggregation over all 8192 neighbours (`acc_full`): a sum cut into four consecutive runs,
  which needs only that addition is associative and commutative.
-/
import proofs.«149642_j28784870818074_2_alg».proof.Proof.Gen.KernelIdeal.Value
import proofs.«149642_j28784870818074_2_alg».proof.Proof.GacPieces
import proofs.«149642_j28784870818074_2_alg».proof.Proof.GacPayloads
import proofs.«149642_j28784870818074_2_alg».proof.Proof.GacBlocks
import proofs.«149642_j28784870818074_2_alg».proof.Proof.GacSpec

set_option maxRecDepth 16384

noncomputable section

open scoped BigOperators

namespace Cert.KernelIdeal.GacAccum

open Cert.KernelIdeal Cert.KernelIdeal.Gen Idealize.ShloMosaic Idealize.ShloMosaic.TcCoe Idealize.SL.Sem Idealize.ShloMosaic.ValueIdx
open Cert.KernelIdeal.GacPieces (rows)
open Cert.Gac (zero masked nbr)

variable (m : (ℓ : Loc nD τ sig) → Buf (Elt Ideal) ℓ) (c : Dev nD)

/-- Row `p` of the row block that grid point `n` works on: row 512·(n div 4) + p. -/
def rowOf (n : ℕ) (p : Fin 512) : Fin 8192 :=
  ⟨512 * (n / 4 % 16) + p.val, by have := Nat.mod_lt (n / 4) (by decide : 0 < 16); have := p.isLt; omega⟩

/-- The run of neighbours grid point `n` works on: run n mod 4. -/
def runOf (n : ℕ) : Fin 4 := ⟨n % 4, Nat.mod_lt _ (by decide)⟩

/-- Neighbour `j`'s term in the aggregation of (row P, feature q), over the arrays as the region finds them. -/
def term (P : Fin 8192) (q : Fin 256) (j : Fin 8192) : EReal :=
  masked (V m c main_arg0 (ix2 P j)) (V m c main_arg2 (ix2 P j)) * V m c main_arg1 (ix2 j q)

/-- What grid point `n` adds to the accumulator's entry `i`: its run's terms. -/
def addend (n : ℕ) (i : S512x256.Idx) : EReal :=
  ∑ s : Fin 2048, term m c (rowOf n (i 0)) (i 1) (nbr (runOf n) s)

/-- One step at grid point `t`, at entry (p, q): what was there plus the point's addend. -/
theorem step_at (t : Fin cfg0.N) (acc : FVec Ideal S512x256 .f32) (p : Fin 512) (q : Fin 256) :
    k0_pay2 (F := Ideal) (iblk m c 1 t) (iblk m c 0 t) (rows (grid0.coords t) (iblk m c 2 t)) acc (ix2 p q)
      = acc (ix2 p q) + addend m c t.val (ix2 p q) := by
  refine (GacPayloads.step_apply (iblk m c 1 t) (iblk m c 0 t) (rows (grid0.coords t) (iblk m c 2 t)) acc p q).trans ?_
  refine congrArg (acc (ix2 p q) + ·) (Finset.sum_congr rfl fun s _ => ?_)
  have hN : cfg0.N = 64 := N_0
  have hP : (rowOf t.val p).val = 512 * (t.val / 4) + p.val := by
    show 512 * (t.val / 4 % 16) + p.val = _
    have := t.isLt; omega
  have hJ : (nbr (runOf t.val) s).val = 2048 * (t.val % 4) + s.val := rfl
  rw [GacBlocks.adj_block m c t p s (rowOf t.val p) (nbr (runOf t.val) s) hP hJ,
    GacBlocks.attn_block m c t p s (rowOf t.val p) (nbr (runOf t.val) s) hP hJ,
    GacBlocks.x_rows m c t s q (nbr (runOf t.val) s) hJ]
  rfl

/-- The accumulator after grid point `t`, at entry `i`: zero, then the addends of the row block's points up to `t`. -/
theorem acc_at (t : Fin cfg0.N) (i : S512x256.Idx) :
    (outsAt0 m c t.val t.isLt).2 i
      = zero + ∑ s ∈ Finset.range (t.val % 4 + 1), addend m c (4 * (t.val / 4) + s) i := by
  have hN : cfg0.N = 64 := N_0
  have ht := t.isLt
  rw [Value.soutsAt0_0_eq m c t]
  refine Pipeline.accAt_add_apply _ _ (fun _ => zero) (addend m c) (4 * (t.val / 4)) 3 ?_ ?_ (t.val % 4) (by omega) _ i
  · intro h j
    obtain ⟨p, q, rfl⟩ : ∃ (p : Fin 512) (q : Fin 256), j = ix2 p q := ⟨j 0, j 1, eq_ix2 j⟩
    have h0 : (4 * (t.val / 4)) % 4 = 0 := by omega
    have h1 : ¬(4 * (t.val / 4)) % 4 = 3 := by omega
    show Value.scAt0_0 m c (4 * (t.val / 4)) h _ (ix2 p q) = zero + addend m c (4 * (t.val / 4)) (ix2 p q)
    unfold Value.scAt0_0
    rw [dif_pos h0, dif_neg h1]
    refine (congrFun (GacPieces.acc_first (F := Ideal) c (grid0.coords (⟨4 * (t.val / 4), h⟩ : Fin cfg0.N)) (ms0_0 (⟨4 * (t.val / 4), h⟩ : Fin cfg0.N)) (hs0_0 (⟨4 * (t.val / 4), h⟩ : Fin cfg0.N)) (ms0_1 (⟨4 * (t.val / 4), h⟩ : Fin cfg0.N)) (hs0_1 (⟨4 * (t.val / 4), h⟩ : Fin cfg0.N)) (ms0_2 (⟨4 * (t.val / 4), h⟩ : Fin cfg0.N)) (hs0_2 (⟨4 * (t.val / 4), h⟩ : Fin cfg0.N)) (ms0_3 (⟨4 * (t.val / 4), h⟩ : Fin cfg0.N)) (hs0_3 (⟨4 * (t.val / 4), h⟩ : Fin cfg0.N)) (ms0_4 (⟨4 * (t.val / 4), h⟩ : Fin cfg0.N)) (hs0_4 (⟨4 * (t.val / 4), h⟩ : Fin cfg0.N)) (ms0_5 (⟨4 * (t.val / 4), h⟩ : Fin cfg0.N)) (hs0_5 (⟨4 * (t.val / 4), h⟩ : Fin cfg0.N)) scM0_0 (Memref.isWhole_whole _) ((hcond0_0 (⟨4 * (t.val / 4), h⟩ : Fin cfg0.N)).mpr h0) (fun hh => h1 ((hcond0_1 (⟨4 * (t.val / 4), h⟩ : Fin cfg0.N)).mp hh)) (iblk m c 0 (⟨4 * (t.val / 4), h⟩ : Fin cfg0.N)) (iblk m c 1 (⟨4 * (t.val / 4), h⟩ : Fin cfg0.N)) (iblk m c 2 (⟨4 * (t.val / 4), h⟩ : Fin cfg0.N)) (iblk m c 3 (⟨4 * (t.val / 4), h⟩ : Fin cfg0.N)) (iblk m c 4 (⟨4 * (t.val / 4), h⟩ : Fin cfg0.N))) (ix2 p q)).trans ?_
    refine (step_at m c (⟨4 * (t.val / 4), h⟩ : Fin cfg0.N) (k0_pay1 (F := Ideal)) p q).trans ?_
    rw [GacPayloads.zero_apply]
  · intro n h acc j hb he
    obtain ⟨p, q, rfl⟩ : ∃ (p : Fin 512) (q : Fin 256), j = ix2 p q := ⟨j 0, j 1, eq_ix2 j⟩
    have h0 : ¬n % 4 = 0 := by omega
    show Value.scAt0_0 m c n h acc (ix2 p q) = acc (ix2 p q) + addend m c n (ix2 p q)
    unfold Value.scAt0_0
    rw [dif_neg h0]
    by_cases h1 : n % 4 = 3
    · rw [dif_pos h1]
      exact (congrFun (GacPieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) (ix2 p q)).trans
        (step_at m c (⟨n, h⟩ : Fin cfg0.N) acc p q)
    · rw [dif_neg h1]
      exact (congrFun (GacPieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) (ix2 p q)).trans
        (step_at m c (⟨n, h⟩ : Fin cfg0.N) acc p q)

/-- After the last step of a row block the accumulator's entry (p, q) is the aggregation over all 8192 neighbours. -/
theorem acc_full (t : Fin cfg0.N) (h3 : t.val % 4 = 3) (p : Fin 512) (q : Fin 256) :
    (outsAt0 m c t.val t.isLt).2 (ix2 p q)
      = Cert.Gac.agg (V m c main_arg0) (V m c main_arg2) (V m c main_arg1) (rowOf t.val p) q := by
  have hN : cfg0.N = 64 := N_0
  have ht := t.isLt
  rw [acc_at m c t (ix2 p q), h3]
  refine (Cert.Gac.zero_add_runs (term m c (rowOf t.val p) q) (fun k => addend m c (4 * (t.val / 4) + k) (ix2 p q)) fun k => ?_).trans rfl
  have hk := k.isLt
  have er : rowOf (4 * (t.val / 4) + k.val) p = rowOf t.val p := Fin.ext (by
    show 512 * ((4 * (t.val / 4) + k.val) / 4 % 16) + p.val = 512 * (t.val / 4 % 16) + p.val
    omega)
  have ek : runOf (4 * (t.val / 4) + k.val) = k := Fin.ext (by
    show (4 * (t.val / 4) + k.val) % 4 = k.val
    omega)
  show (∑ s : Fin 2048, term m c (rowOf (4 * (t.val / 4) + k.val) p) q (nbr (runOf (4 * (t.val / 4) + k.val)) s)) = _
  rw [er, ek]

end Cert.KernelIdeal.GacAccum

end
-- ==== Proof.GacRun.lean ====
/-
  The kernel's result array after the run is the graph-attention convolution of the argument arrays.

  Row block I of the result is written back once, after the last of the block's four steps (grid point 4·I + 3), and
  what is written is the epilogue of the accumulator, which by then holds the aggregation over all 8192 neighbours. So
  every write-back is the matching block of ONE function of the argument arrays (`flushed_eq`), the sixteen row blocks
  cover the array (`covered`), and the array ends holding that function (`final`).
-/
import proofs.«149642_j28784870818074_2_alg».proof.Proof.Gen.KernelIdeal.Value
import proofs.«149642_j28784870818074_2_alg».proof.Proof.GacAccum

set_option maxRecDepth 16384

noncomputable section

open scoped BigOperators

namespace Cert.KernelIdeal.GacRun

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.GacPieces (rows)
open Cert.KernelIdeal.GacAccum (rowOf)
open Cert.Gac (zero)

variable (m : (ℓ : Loc nD τ sig) → Buf (Elt Ideal) ℓ) (ρ : Dev nD → PrngReg)

/-- The result: the graph-attention convolution of the argument arrays as launched. -/
abbrev result (c : Dev nD) : S8192x256.Idx → EReal :=
  Cert.Gac.gac (m ((c : Thread nD τ).loc main_arg0)) (m ((c : Thread nD τ).loc main_arg1)) (m ((c : Thread nD τ).loc main_arg2)) (m ((c : Thread nD τ).loc main_arg3)) (m ((c : Thread nD τ).loc main_arg4))

/-- Entry (p, q) of the block written back at grid point `t` is entry (512·(t div 4) + p, q) of the array. -/
theorem emb_out (t : Fin cfg0.N) (p : Fin 512) (q : Fin 256) :
    ((cfg0.win 5).blk t).view.emb (ix2 p q) = ix2 (rowOf t.val p) q := by
  have hN : cfg0.N = 64 := N_0
  have ht := t.isLt
  funext a; apply Fin.ext
  obtain ⟨-, -, -, -, -, -, -, -, -, -, e0, e1, -⟩ := GacBlocks.idx_facts t
  match a with
  | ⟨0, _⟩ =>
    show win0_5.index t (0 : Fin 2) * 512 + 1 * p.val = 512 * (t.val / 4 % 16) + p.val
    rw [e0]; omega
  | ⟨1, _⟩ => show win0_5.index t (1 : Fin 2) * 256 + 1 * q.val = q.val; rw [e1]; omega

/-- What a write-back writes is the matching block of the result. -/
theorem flushed_eq (c : Dev nD) (t : Fin cfg0.N) (hf : (cfg0.win 5).flush t = true) :
    (dats m 0 c).flushed 5 t = ((cfg0.win 5).blk t).view.read (Elt Ideal) (result m c) := by
  have hN : cfg0.N = 64 := N_0
  have ht := t.isLt
  have h1 : t.val % 4 = 3 := (flush0_5 t).mp hf
  have h0 : ¬t.val % 4 = 0 := by omega
  rw [Value.flushed5_C m c t h0 h1]
  -- the accumulator this point leaves is the step over what the point before left
  have hacc : k0_pay2 (F := Ideal) (iblk m c 1 t) (iblk m c 0 t) (rows (grid0.coords t) (iblk m c 2 t))
      (outsAt0 m c (t.val - 1) (Nat.lt_of_le_of_lt (Nat.sub_le _ _) t.isLt)).2 = (outsAt0 m c t.val t.isLt).2 :=
    ((congrArg Prod.snd (outsAt0_C m c t h0 h1)).trans
      (GacPieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t)
        (outsAt0 m c (t.val - 1) (Nat.lt_of_le_of_lt (Nat.sub_le _ _) t.isLt)).2)).symm
  funext j
  obtain ⟨p, q, rfl⟩ : ∃ (p : Fin 512) (q : Fin 256), j = ix2 p q := ⟨j 0, j 1, eq_ix2 j⟩
  show out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t)
      (outsAt0 m c (t.val - 1) (Nat.lt_of_le_of_lt (Nat.sub_le _ _) t.isLt)).2 (ix2 p q)
    = result m c (((cfg0.win 5).blk t).view.emb (ix2 p q))
  refine (congrFun (GacPieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t)
      (outsAt0 m c (t.val - 1) (Nat.lt_of_le_of_lt (Nat.sub_le _ _) t.isLt)).2) (ix2 p q)).trans ?_
  rw [hacc, emb_out]
  refine (GacPayloads.epilogue_apply (outsAt0 m c t.val t.isLt).2 (iblk m c 3 t) (iblk m c 4 t) p q).trans ?_
  rw [GacBlocks.bias_block m c t q]
  show _ = max ((∑ f : Fin 256, Cert.Gac.agg (m ((c : Thread nD τ).loc main_arg0)) (m ((c : Thread nD τ).loc main_arg2)) (m ((c : Thread nD τ).loc main_arg1)) (rowOf t.val p) f
      * (m ((c : Thread nD τ).loc main_arg3)) (ix2 f q)) + (m ((c : Thread nD τ).loc main_arg4)) (ix1 q)) zero
  refine congrArg (fun s => max (s + (m ((c : Thread nD τ).loc main_arg4)) (ix1 q)) zero) (Finset.sum_congr rfl fun f _ => ?_)
  rw [GacAccum.acc_full m c t h1 p f, GacBlocks.w_block m c t f q, V_main_arg0, V_main_arg1, V_main_arg2, V_main_arg3]

/-- An index of the array is in point `t`'s block iff each coordinate is in the block's range on its axis. -/
theorem mem_blk (t : Fin cfg0.N) (i : S8192x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v1).slice (win0_5.rect t)).set ↔ _
  rw [View.set_slice_whole, Rect.mem_set_unit]
  exact Iff.rfl

/-- Every index of the array is in the block some write-back writes: row r is in row block r div 512, written back
    after that block's last step. -/
theorem covered (i : S8192x256.Idx) :
    ∃ t : Fin cfg0.N, (cfg0.win 5).flush t = true ∧ i ∈ ((cfg0.win 5).blk t).view.set := by
  have hN : cfg0.N = 64 := N_0
  have hi0 : (i 0).val < 8192 := (i 0).isLt
  have hi1 : (i 1).val < 256 := (i 1).isLt
  refine ⟨⟨4 * ((i 0).val / 512) + 3, by omega⟩, (flush0_5 _).mpr (by show (4 * ((i 0).val / 512) + 3) % 4 = 3; omega), ?_⟩
  rw [mem_blk]
  obtain ⟨-, -, -, -, -, -, -, -, -, -, e0, e1, -⟩ := GacBlocks.idx_facts (⟨4 * ((i 0).val / 512) + 3, by omega⟩ : Fin cfg0.N)
  intro a
  match a with
  | ⟨0, _⟩ =>
    show win0_5.index (⟨4 * ((i 0).val / 512) + 3, by omega⟩ : Fin cfg0.N) (0 : Fin 2) * 512 ≤ (i 0).val
      ∧ (i 0).val < win0_5.index (⟨4 * ((i 0).val / 512) + 3, by omega⟩ : Fin cfg0.N) (0 : Fin 2) * 512 + 512
    rw [e0]
    show (4 * ((i 0).val / 512) + 3) / 4 * 512 ≤ (i 0).val ∧ (i 0).val < (4 * ((i 0).val / 512) + 3) / 4 * 512 + 512
    omega
  | ⟨1, _⟩ =>
    show win0_5.index (⟨4 * ((i 0).val / 512) + 3, by omega⟩ : Fin cfg0.N) (1 : Fin 2) * 256 ≤ (i 1).val
      ∧ (i 1).val < win0_5.index (⟨4 * ((i 0).val / 512) + 3, by omega⟩ : Fin cfg0.N) (1 : Fin 2) * 256 + 256
    rw [e1]
    omega

/-- The result array after the run is the graph-attention convolution of the argument arrays. -/
theorem final (c : Dev nD) : (dats m 0 c).arrAt 5 cfg0.N = result m c :=
  (dats m 0 c).arrAt_eq_of_cover 5 (result m c) (fun t hf => flushed_eq m c t hf) covered

/-- The run, read: the result array at the convolution of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.GacRun

end
-- ==== Proof.lean ====
/-
  A dense graph-attention convolution on 8192 nodes: the tiled kernel against its plain reference.

  Both programs compute, for node i and output feature o,

      out (i, o) = max ( (∑ f, agg (i, f) · W (f, o)) + b o , 0 ),    agg (i, f) = ∑ j, masked (i, j) · x (j, f),

  on the extended reals (`Cert.Gac.gac`). The kernel masks the attention weight by a test of the adjacency word
  (nonzero: keep; zero: drop), sums over the neighbours in four runs of 2048 carried in an accumulator across four grid
  steps, and applies the linear map, the bias and the clip in the last step of each block of 512 rows. The reference
  multiplies the attention weight by the adjacency word read as a number, sums over all neighbours at once, and then
  applies the same linear map, bias and clip.

  The two maskings agree exactly when every adjacency word is 0 or 1 — the precondition's last conjunct — and then the
  two sides are one function: the sum over 8192 neighbours is the four runs' sums added one after the other, which uses
  only that addition is associative and commutative; the changes of float format around the kernel's first matrix
  product are the identity on extended reals; nothing needs the inputs to be finite.

  Modules: `GacSpec` (the function and the two laws), `GacPre` (the precondition read back), `GacReference` (the
  reference is the function), `GacPieces` / `GacPayloads` / `GacBlocks` / `GacAccum` / `GacRun` (the kernel's result
  array is the function), and the claims below.
-/
import proofs.«149642_j28784870818074_2_alg».proof.Defs
import proofs.«149642_j28784870818074_2_alg».proof.Proof.Gen.Kernel
import proofs.«149642_j28784870818074_2_alg».proof.Proof.Gen.Kernel.Skeleton
import proofs.«149642_j28784870818074_2_alg».proof.Proof.Gen.Kernel.Launch
import proofs.«149642_j28784870818074_2_alg».proof.Proof.Gen.Kernel.Points
import proofs.«149642_j28784870818074_2_alg».proof.Proof.Gen.Kernel.Frame
import proofs.«149642_j28784870818074_2_alg».proof.Proof.Gen.KernelIdeal
import proofs.«149642_j28784870818074_2_alg».proof.Proof.Gen.KernelIdeal.Skeleton
import proofs.«149642_j28784870818074_2_alg».proof.Proof.Gen.KernelIdeal.Launch
import proofs.«149642_j28784870818074_2_alg».proof.Proof.Gen.KernelIdeal.Points
import proofs.«149642_j28784870818074_2_alg».proof.Proof.Gen.KernelIdeal.Frame
import proofs.«149642_j28784870818074_2_alg».proof.Proof.Gen.KernelIdeal.Value
import proofs.«149642_j28784870818074_2_alg».proof.Proof.Gen.ReferenceIdeal.Run
import proofs.«149642_j28784870818074_2_alg».proof.Proof.Gen.ReferenceIdeal.Read
import proofs.«149642_j28784870818074_2_alg».proof.Proof.Gen.ReferenceIdeal
import proofs.«149642_j28784870818074_2_alg».proof.Proof.Gen.Pre_finite_inputs
import proofs.«149642_j28784870818074_2_alg».proof.Proof.GacPre
import proofs.«149642_j28784870818074_2_alg».proof.Proof.GacReference
import proofs.«149642_j28784870818074_2_alg».proof.Proof.GacRun
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs to the end and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, with every adjacency word 0 or 1, both programs end with the
    graph-attention convolution of the arguments in their result arrays. -/
theorem algebraic : Cert.algebraic_KernelIdeal_ReferenceIdeal := by
  intro m ρ m' ρ' hpre hagree
  refine ⟨fun c => Cert.KernelIdeal.GacRun.result m c, Cert.KernelIdeal.GacRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2.1,
    (hagree c).2.2.2.2]
  exact Cert.Gac.reference_eq_gac _ _ _ _ _ fun i => Cert.Gac.adjacency_zero_or_one _ _ _ _ _ (hpre c) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
